-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64x16 .f32) (main_arg6 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg5
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x16 .f32) (main_arg6 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000x64 : Shape := ⟨2, ![100000, 64]⟩
abbrev S10000x128 : Shape := ⟨2, ![10000, 128]⟩
abbrev S10000x64 : Shape := ⟨2, ![10000, 64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 129
  | .vmem => 20
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64x16, .f32⟩
  | 6 => ⟨S16, .f32⟩
  | 7 => ⟨S100000x64, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x1, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x16, .f32⟩
  | 69 => ⟨S1x1600000, .i32⟩
  | 70 => ⟨S1600000, .i32⟩
  | 71 => ⟨S1x1600000, .i32⟩
  | 72 => ⟨S1600000, .i32⟩
  | 73 => ⟨S100000, .i32⟩
  | 74 => ⟨S1700000, .i32⟩
  | 75 => ⟨S1700000, .i32⟩
  | 76 => ⟨S_, .f32⟩
  | 77 => ⟨S100000, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x16, .f32⟩
  | 120 => ⟨S1700000x1, .f32⟩
  | 121 => ⟨S1700000x16, .f32⟩
  | 122 => ⟨S1700000x16, .f32⟩
  | 123 => ⟨S_, .f32⟩
  | 124 => ⟨S100000x16, .f32⟩
  | 125 => ⟨S1700000x1, .i32⟩
  | 126 => ⟨S100000x16, .f32⟩
  | 127 => ⟨S1x16, .f32⟩
  | _ => ⟨S100000x128, .f32⟩

abbrev hbmTy0_1 (i : Nat) : BufTy := match i % 128 with
  | 0 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S1x16, .f32⟩
  | .local _ .vmem, ⟨18, _⟩ => ⟨S10000x16, .f32⟩
  | .local _ .vmem, ⟨19, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_call1_v0 : Ref sig .tc := ⟨.hbm, 88, rfl⟩
abbrev main_call1_v1 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_17 : Ref sig .tc := ⟨.hbm, 111, rfl⟩
abbrev main_v81 : Ref sig .tc := ⟨.hbm, 112, rfl⟩
abbrev main_v82 : Ref sig .tc := ⟨.hbm, 113, rfl⟩
abbrev main_c_18 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_19 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x16_S10000x16_1_0_0_1_n_n_wf : DotDims.WF S10000x64 S64x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S100000x16.size a
  hwx3_2 : ∀ i : grid3.Coords, EltTy.bits .f32 = 32 ∨ (Rect.block (s := S100000x16) S10000x16.size (cc3_transform_2 i) (hinb3_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v93) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v95) S10000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000x64 : Shape := ⟨2, ![100000, 64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 149
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64x16, .f32⟩
  | 6 => ⟨S16, .f32⟩
  | 7 => ⟨S100000x64, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x1, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x16, .f32⟩
  | 73 => ⟨S1x1600000, .i32⟩
  | 74 => ⟨S1600000, .i32⟩
  | 75 => ⟨S1x1600000, .i32⟩
  | 76 => ⟨S1600000, .i32⟩
  | 77 => ⟨S100000, .i32⟩
  | 78 => ⟨S1700000, .i32⟩
  | 79 => ⟨S1700000, .i32⟩
  | 80 => ⟨S_, .f32⟩
  | 81 => ⟨S100000, .f32⟩
  | 82 => ⟨S1700000, .f32⟩
  | 83 => ⟨S_, .f32⟩
  | 84 => ⟨S100000, .f32⟩
  | 85 => ⟨S1700000x1, .i32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x16, .f32⟩
  | 124 => ⟨S1700000x1, .f32⟩
  | 125 => ⟨S1700000x16, .f32⟩
  | 126 => ⟨S1700000x16, .f32⟩
  | 127 => ⟨S_, .f32⟩
  | _ => ⟨S100000x128, .f32⟩

abbrev hbmTy0_1 (i : Nat) : BufTy := match i % 128 with
  | 0 => ⟨S100000x16, .f32⟩
  | 1 => ⟨S1700000x1, .i32⟩
  | 2 => ⟨S100000x16, .f32⟩
  | 3 => ⟨S1x16, .f32⟩
  | 4 => ⟨S100000x16, .f32⟩
  | 5 => ⟨S100000x16, .f32⟩
  | 6 => ⟨S_, .f32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x16, .f32⟩
  | 13 => ⟨S100000x16, .f32⟩
  | 14 => ⟨S100000x16, .f32⟩
  | 15 => ⟨S_, .f32⟩
  | 16 => ⟨S100000, .f32⟩
  | 17 => ⟨S100000x1, .f32⟩
  | 18 => ⟨S100000x1, .f32⟩
  | 19 => ⟨S100000x16, .f32⟩
  | 20 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_17 : Ref sig .tc := ⟨.hbm, 115, rfl⟩
abbrev main_v83 : Ref sig .tc := ⟨.hbm, 116, rfl⟩
abbrev main_v84 : Ref sig .tc := ⟨.hbm, 117, rfl⟩
abbrev main_c_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_call3_cst : Ref sig .tc := ⟨.hbm, 134, rfl⟩
abbrev main_call3_v0 : Ref sig .tc := ⟨.hbm, 135, rfl⟩
abbrev main_call3_cst_0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_v6 : Ref sig .tc := ⟨.hbm, 142, rfl⟩
abbrev main_call3_cst_1 : Ref sig .tc := ⟨.hbm, 143, rfl⟩
abbrev main_call3_v7 : Ref sig .tc := ⟨.hbm, 144, rfl⟩
abbrev main_call3_v8 : Ref sig .tc := ⟨.hbm, 145, rfl⟩
abbrev main_call3_v9 : Ref sig .tc := ⟨.hbm, 146, rfl⟩
abbrev main_call3_v10 : Ref sig .tc := ⟨.hbm, 147, rfl⟩
abbrev main_v99 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The idealized kernel's run with its result named.

  The program is four kernel regions among stretches of host operations.  Its generated frame walks the buffer
  contents through every segment: "W0" at launch, "W1" after the first region, ..., "W10" after the last, and ends
  with every unscoped buffer of the core holding "W10".  The frame reads only the argument arrays off that last
  state.  Here the same run is read at the result buffer as well: it ends holding "W10" at that buffer.  What that
  value is, as a function of the arguments, is the business of the other modules.
-/
import proofs.«167572_j63075889709536_1_alg».proof.Proof.Gen.KernelIdeal.Frame

set_option maxRecDepth 16384

noncomputable section

namespace Cert.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the seven argument arrays end as launched. -/
theorem run_result : θ_run defs (onTc (τ := τ) (main (F := F))) ⟨m, fun _ => 0, ρ⟩ (fun r => ∀ c : Dev nD,
      r.2.mem ((c.tc : Thread nD τ).loc main_v95) = W10 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v95 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.Gcn

end
-- ==== Proof.HostAgg.lean ====
/-
  The neighbourhood sum of a graph-convolution layer, as both programs compute it on the host.

  The edge list "e" has two rows of 1600000 node numbers: sources and targets.  Every node also gets a loop edge to
  itself, so there are 1700000 edges: "src e" and "dst e" are the two rows with 0, 1, ..., 99999 laid after them, and
  "wts w" is the edge weights with 100000 ones laid after them.  "deg e w" adds each edge's weight into its target node,
  "dinv e w" is the reciprocal square root of that sum where it is positive and zero elsewhere, and "norm e w" is, edge by
  edge, dinv(source) * weight * dinv(target).  A negative node number is read from the end of the array ("wrap").

  "agg h e w" gathers row source(edge) of the node features "h" for every edge, scales it by the edge's "norm", and adds
  it into row target(edge) of an array of zeros.  It is stated once, for any number "q" of feature columns through the
  two records that describe the gather and the scatter, and then at 64 and at 16 columns.

  Nothing here is opened by the proof: both programs apply these same operations to their node features, so it is enough
  that the features going in are equal.
-/
import proofs.«167572_j63075889709536_1_alg».proof.Proof.Gen.KernelIdeal

noncomputable section

namespace Cert.Gcn

open Idealize.ShloMosaic Cert.KernelIdeal Cert.KernelIdeal.Facts₀

variable {F : FTy → Type} [FloatOps F]

/-- Row 0 of the edge list (the sources), as a vector. -/
def edgeRow0 (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list (the targets), as a vector. -/
def edgeRow1 (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The sources of all 1700000 edges: the given ones, then every node once (its loop). -/
def src (e : (⟨S2x1600000, .i32⟩ : BufTy).Contents (Elt F)) : (⟨S1700000, .i32⟩ : BufTy).Contents (Elt F) :=
  concatenate S1700000 0 [⟨S1600000, edgeRow0 (F := F) e⟩, ⟨S100000, (iotaInDim S100000 32 0)⟩] concatenates_S1600000_S100000_S1700000_d0

/-- The targets of all 1700000 edges. -/
def dst (e : (⟨S2x1600000, .i32⟩ : BufTy).Contents (Elt F)) : (⟨S1700000, .i32⟩ : BufTy).Contents (Elt F) :=
  concatenate S1700000 0 [⟨S1600000, edgeRow1 (F := F) e⟩, ⟨S100000, (iotaInDim S100000 32 0)⟩] concatenates_S1600000_S100000_S1700000_d0

/-- The weights of all 1700000 edges: the given ones, then a one for every loop. -/
def wts (w : (⟨S1600000, .f32⟩ : BufTy).Contents (Elt F)) : (⟨S1700000, .f32⟩ : BufTy).Contents (Elt F) :=
  concatenate S1700000 0 [⟨S1600000, w⟩, ⟨S100000, (broadcastInDim S100000 ![] bcast_S_S100000 (constant S_ .f32 0x3F800000#32))⟩] concatenates_S1600000_S100000_S1700000_d0

/-- A vector of node numbers as a one-column array of start indices. -/
def col (v : (⟨S1700000, .i32⟩ : BufTy).Contents (Elt F)) : (⟨S1700000x1, .i32⟩ : BufTy).Contents (Elt F) :=
  broadcastInDim S1700000x1 ![0] bcast_S1700000_S1700000x1_0 v

/-- The zero vector over the nodes. -/
def zeroNodes : (⟨S100000, .f32⟩ : BufTy).Contents (Elt F) :=
  broadcastInDim S100000 ![] bcast_S_S100000 (constant S_ .f32 0x00000000#32)

/-- Each node's weighted in-degree, its loop included. -/
def deg (e : (⟨S2x1600000, .i32⟩ : BufTy).Contents (Elt F)) (w : (⟨S1600000, .f32⟩ : BufTy).Contents (Elt F)) :
    (⟨S100000, .f32⟩ : BufTy).Contents (Elt F) :=
  Host.scatterAdd scatter_S100000_S1700000x1_S1700000_n_0_0_1 (zeroNodes (F := F)) (col (F := F) (dst (F := F) e)) (wts (F := F) w)

/-- The reciprocal square root of the degree where the degree is positive, zero elsewhere. -/
def dinv (e : (⟨S2x1600000, .i32⟩ : BufTy).Contents (Elt F)) (w : (⟨S1600000, .f32⟩ : BufTy).Contents (Elt F)) :
    (⟨S100000, .f32⟩ : BufTy).Contents (Elt F) :=
  select (cmpf .ogt (deg (F := F) e w) (zeroNodes (F := F))) (Host.rsqrt (deg (F := F) e w))
    (broadcastInDim S100000 ![] bcast_S_S100000 (id (constant S_ .f32 0x00000000#32)))

/-- A negative node number counts from the end: 100000 is added to it. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- Edge by edge: dinv at the source, times the weight, times dinv at the target. -/
def norm (e : (⟨S2x1600000, .i32⟩ : BufTy).Contents (Elt F)) (w : (⟨S1600000, .f32⟩ : BufTy).Contents (Elt F)) :
    (⟨S1700000, .f32⟩ : BufTy).Contents (Elt F) :=
  mulf (mulf (Host.gather gather_S100000_S1700000x1_S1700000_n_0_n_n_0_1_1 (dinv (F := F) e w) (col (F := F) (wrap (F := F) (src (F := F) e))))
      (wts (F := F) w))
    (Host.gather gather_S100000_S1700000x1_S1700000_n_0_n_n_0_1_1 (dinv (F := F) e w) (col (F := F) (wrap (F := F) (dst (F := F) e))))

/-- The edge factors as a one-column array. -/
def normCol (e : (⟨S2x1600000, .i32⟩ : BufTy).Contents (Elt F)) (w : (⟨S1600000, .f32⟩ : BufTy).Contents (Elt F)) :
    (⟨S1700000x1, .f32⟩ : BufTy).Contents (Elt F) :=
  broadcastInDim S1700000x1 ![0] bcast_S1700000_S1700000x1_0 (norm (F := F) e w)

/-- The neighbourhood sum of node features with 64 columns. -/
def agg64 (h : (⟨S100000x64, .f32⟩ : BufTy).Contents (Elt F)) (e : (⟨S2x1600000, .i32⟩ : BufTy).Contents (Elt F))
    (w : (⟨S1600000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32)) (col (F := F) (dst (F := F) e))
    (mulf (Host.gather gather_S100000x64_S1700000x1_S1700000x64_1_0_n_n_0_1_164 h (col (F := F) (wrap (F := F) (src (F := F) e))))
      (broadcastInDim S1700000x64 ![0, 1] bcast_S1700000x1_S1700000x64_0_1 (normCol (F := F) e w)))

/-- The neighbourhood sum of node features with 16 columns. -/
def agg16 (h : (⟨S100000x16, .f32⟩ : BufTy).Contents (Elt F)) (e : (⟨S2x1600000, .i32⟩ : BufTy).Contents (Elt F))
    (w : (⟨S1600000, .f32⟩ : BufTy).Contents (Elt F)) : (⟨S100000x16, .f32⟩ : BufTy).Contents (Elt F) :=
  Host.scatterAdd scatter_S100000x16_S1700000x1_S1700000x16_1_0_0_1
    (broadcastInDim S100000x16 ![] bcast_S_S100000x16 (constant S_ .f32 0x00000000#32)) (col (F := F) (dst (F := F) e))
    (mulf (Host.gather gather_S100000x16_S1700000x1_S1700000x16_1_0_n_n_0_1_116 h (col (F := F) (wrap (F := F) (src (F := F) e))))
      (broadcastInDim S1700000x16 ![0, 1] bcast_S1700000x1_S1700000x16_0_1 (normCol (F := F) e w)))

end Cert.Gcn

end
-- ==== Proof.KernelHost.lean ====
/-
  The kernel program's host operations between its regions, read as the named neighbourhood sum.

  "W1" is the core's buffer contents after the first region, "W4" when the second region starts (after the 59 host
  operations in between), "W5" after the second, "W6" after the third, "W9" when the fourth starts.  The host
  operations between two regions take the earlier region's result, the edge list and the edge weights, and leave the
  neighbourhood sum "agg64" (or "agg16") of that result in the buffer the next region reads as its first operand,
  and the bias vector recast as a one-row array in the buffer it reads as its second.  No host operation and no region
  writes an argument array, so at every boundary an argument's buffer holds what it held at launch.
-/
import proofs.«167572_j63075889709536_1_alg».proof.Proof.Gen.KernelIdeal.Frame
import proofs.«167572_j63075889709536_1_alg».proof.Proof.HostAgg

set_option maxRecDepth 16384

noncomputable section

namespace Cert.Gcn

open Idealize.ShloMosaic Idealize.ShloMosaic.TcCoe Idealize.SL.Sem Idealize.ShloMosaic.StableHlo
open Cert.KernelIdeal Cert.KernelIdeal.Facts₀ Cert.KernelIdeal.Gen

variable {F : FTy → Type} [FloatOps F]
variable (m : (ℓ : Loc nD τ sig) → Buf (Elt F) ℓ) (ρ : Dev nD → PrngReg)

/-! ## The arguments at the boundaries -/

/-- After the first region an argument the region does not write holds its launch contents. -/
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)
theorem W1_arg6 (c : Dev nD) : W1 m ρ c (Proc.devRef .tc main_arg6) = m ((c : Thread nD τ).loc main_arg6) :=
  W1_of_ne m ρ c main_arg6 (by decide)

set_option maxHeartbeats 4000000 in
/-- The host operations between the first and the second region write none of these buffers. -/
theorem W4_keeps (c : Dev nD) (b : Ref sig .tc)
    (hb : b = main_arg1 ∨ b = main_arg2 ∨ b = main_arg5 ∨ b = main_arg6) :
    W4 m ρ c (Proc.devRef .tc b) = W1 m ρ c (Proc.devRef .tc b) := by
  show StableHlo.after hostOps1_2 (StableHlo.after hostOps1_1 (StableHlo.after hostOps1 (W1 m ρ c))) (Proc.devRef .tc b) = _
  rcases hb with rfl | rfl | rfl | rfl <;> after_results_simp

/-! ## What the second region finds -/

set_option maxHeartbeats 4000000 in
/-- Its first operand: the neighbourhood sum of the first region's result. -/
theorem W4_v45 (c : Dev nD) :
    W4 m ρ c (Proc.devRef .tc main_v45)
      = agg64 (F := F) (W1 m ρ c (Proc.devRef .tc main_v0)) (W1 m ρ c (Proc.devRef .tc main_arg1))
          (W1 m ρ c (Proc.devRef .tc main_arg2)) := by
  show StableHlo.after hostOps1_2 (StableHlo.after hostOps1_1 (StableHlo.after hostOps1 (W1 m ρ c))) (Proc.devRef .tc main_v45) = _
  after_results_simp
  rfl

set_option maxHeartbeats 4000000 in
/-- Its second operand: the first bias vector as a one-row array. -/
theorem W4_v46 (c : Dev nD) :
    W4 m ρ c (Proc.devRef .tc main_v46) = shapeCast S1x64 (W1 m ρ c (Proc.devRef .tc main_arg4)) Facts₀.shapeCasts_S64_S1x64 := by
  show StableHlo.after hostOps1_2 (StableHlo.after hostOps1_1 (StableHlo.after hostOps1 (W1 m ρ c))) (Proc.devRef .tc main_v46) = _
  after_results_simp
  rfl

/-! ## What the third region finds

No host operation runs between the second and the third region: the third reads the second's result directly. -/

/-- The second weight matrix is still as launched when the third region starts. -/
theorem W5_arg5 (c : Dev nD) : W5 m ρ c (Proc.devRef .tc main_arg5) = m ((c : Thread nD τ).loc main_arg5) :=
  (W5_of_ne m ρ c main_arg5 (by decide)).trans ((W4_keeps m ρ c main_arg5 (.inr (.inr (.inl rfl)))).trans (W1_arg5 m ρ c))

/-! ## What the fourth region finds -/

/-- The third region writes none of these buffers (two are not its arrays; an input window's array is left as found). -/
theorem W6_arg1 (c : Dev nD) : W6 m ρ c (Proc.devRef .tc main_arg1) = m ((c : Thread nD τ).loc main_arg1) :=
  (W6_of_ne m ρ c main_arg1 (by decide)).trans ((W5_of_ne m ρ c main_arg1 (by decide)).trans
    ((W4_keeps m ρ c main_arg1 (.inl rfl)).trans (W1_arg1 m ρ c)))
theorem W6_arg2 (c : Dev nD) : W6 m ρ c (Proc.devRef .tc main_arg2) = m ((c : Thread nD τ).loc main_arg2) :=
  (W6_of_ne m ρ c main_arg2 (by decide)).trans ((W5_of_ne m ρ c main_arg2 (by decide)).trans
    ((W4_keeps m ρ c main_arg2 (.inr (.inl rfl))).trans (W1_arg2 m ρ c)))
theorem W6_arg6 (c : Dev nD) : W6 m ρ c (Proc.devRef .tc main_arg6) = m ((c : Thread nD τ).loc main_arg6) :=
  (W6_of_ne m ρ c main_arg6 (by decide)).trans ((W5_of_ne m ρ c main_arg6 (by decide)).trans
    ((W4_keeps m ρ c main_arg6 (.inr (.inr (.inr rfl)))).trans (W1_arg6 m ρ c)))

set_option maxHeartbeats 4000000 in
/-- Its first operand: the neighbourhood sum of the third region's result. -/
theorem W9_v93 (c : Dev nD) :
    W9 m ρ c (Proc.devRef .tc main_v93)
      = agg16 (F := F) (W6 m ρ c (Proc.devRef .tc main_v48)) (W6 m ρ c (Proc.devRef .tc main_arg1))
          (W6 m ρ c (Proc.devRef .tc main_arg2)) := by
  show StableHlo.after hostOps3_2 (StableHlo.after hostOps3_1 (StableHlo.after hostOps3 (W6 m ρ c))) (Proc.devRef .tc main_v93) = _
  after_results_simp
  rfl

set_option maxHeartbeats 4000000 in
/-- Its second operand: the second bias vector as a one-row array. -/
theorem W9_v94 (c : Dev nD) :
    W9 m ρ c (Proc.devRef .tc main_v94) = shapeCast S1x16 (W6 m ρ c (Proc.devRef .tc main_arg6)) Facts₀.shapeCasts_S16_S1x16 := by
  show StableHlo.after hostOps3_2 (StableHlo.after hostOps3_1 (StableHlo.after hostOps3 (W6 m ρ c))) (Proc.devRef .tc main_v94) = _
  after_results_simp
  rfl

end Cert.Gcn

end
-- ==== Proof.LibRowWise.lean ====
/-
  Row-wise layers on rank-2 arrays of extended reals.

  Every layer of the network is ROW-WISE: row r of its result is a function of row r of its input (and of a small
  parameter array).  "rowMap f x" applies a row function "f" to every row of "x".  The three row functions:
  "linRow w" (the row times the matrix "w": entry c is the sum over l of z l * w (l, c)), "reluRow b" (add the
  one-row array "b", then the maximum with zero) and "lsmRow b" (add "b", subtract the row's maximum, then subtract
  the logarithm of the sum of the exponentials: the logarithm of the softmax).  The row's maximum is the fold of
  "max" from minus infinity, which is how both a lane reduction and a host reduction read it.

  A row-wise layer commutes with cutting out a band of rows ("rowMap_band"): the band of the result is the result
  of the band.  That one fact is what lets a computation done band by band be compared with the whole computation.
-/
import Idealize.ShloMosaic.Lib.ValueIdx
import Idealize.ShloMosaic.PureOps.Ideal.Laws

noncomputable section

open scoped BigOperators

namespace GcnSpec

open Idealize.ShloMosaic Idealize.ShloMosaic.ValueIdx

/-- An n × k array of extended reals. -/
abbrev Arr (n k : ℕ) : Type := (⟨2, ![n, k]⟩ : Shape).Idx → EReal

/-- Row r of an array, as a function of the column. -/
def row {n k : ℕ} (x : Arr n k) (r : Fin n) : Fin k → EReal := fun l => x (ix2 r l)

/-- A row function applied to every row. -/
def rowMap {n k q : ℕ} (f : (Fin k → EReal) → Fin q → EReal) (x : Arr n k) : Arr n q :=
  fun i => f (row x ⟨(i 0).val, idx2_lt0 i⟩) ⟨(i 1).val, idx2_lt1 i⟩

theorem rowMap_ix2 {n k q : ℕ} (f : (Fin k → EReal) → Fin q → EReal) (x : Arr n k) (r : Fin n) (c : Fin q) :
    rowMap f x (ix2 r c) = f (row x r) c := rfl

/-- To show an array is "rowMap f x" it is enough to read it at every pair of coordinates. -/
theorem eq_rowMap {n k q : ℕ} (f : (Fin k → EReal) → Fin q → EReal) (x : Arr n k) (y : Arr n q)
    (h : ∀ (r : Fin n) (c : Fin q), y (ix2 r c) = f (row x r) c) : y = rowMap f x := by
  funext i
  obtain ⟨r, c, rfl⟩ : ∃ (r : Fin n) (c : Fin q), i = ix2 r c := ⟨i 0, i 1, eq_ix2 i⟩
  rw [h, rowMap_ix2]

/-- A band of rows: the band of the result is the result of the band.  "e₁" and "e₂" send an index of the band to
    the index of the whole array "o" rows further down, in the same column. -/
theorem rowMap_band {N n k q : ℕ} (f : (Fin k → EReal) → Fin q → EReal) (X : Arr N k) (o : ℕ)
    (e₁ : (⟨2, ![n, k]⟩ : Shape).Idx → (⟨2, ![N, k]⟩ : Shape).Idx)
    (e₂ : (⟨2, ![n, q]⟩ : Shape).Idx → (⟨2, ![N, q]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, q]⟩ : Shape).Idx) :
    rowMap f X (e₂ j) = rowMap f (fun y => X (e₁ y)) j := by
  unfold rowMap
  have hr : row X ⟨(e₂ j 0).val, idx2_lt0 (e₂ j)⟩ = row (fun y => X (e₁ y)) ⟨(j 0).val, idx2_lt0 j⟩ := by
    funext l
    unfold row
    refine congrArg X (funext fun a => Fin.ext ?_)
    match a with
    | ⟨0, _⟩ => show (e₂ j 0).val = (e₁ (ix2 ⟨(j 0).val, idx2_lt0 j⟩ l) 0).val; rw [h20, h10]; rfl
    | ⟨1, _⟩ => show l.val = (e₁ (ix2 ⟨(j 0).val, idx2_lt0 j⟩ l) 1).val; rw [h11]; rfl
  have hc : (⟨(e₂ j 1).val, idx2_lt1 (e₂ j)⟩ : Fin q) = ⟨(j 1).val, idx2_lt1 j⟩ := Fin.ext (h21 j)
  rw [hr, hc]

/-! ## The three row functions -/

/-- The row times a matrix. -/
def linRow {k q : ℕ} (w : Arr k q) (z : Fin k → EReal) : Fin q → EReal := fun c => ∑ l : Fin k, z l * w (ix2 l c)

/-- The float zero and minus infinity, kept as the words the programs spell them with. -/
def zeroF : EReal := Ideal.ofBits .f32 0x00000000#32
def negInfF : EReal := Ideal.ofBits .f32 0xFF800000#32

/-- Add the one-row array, then the maximum with zero. -/
def reluRow {k : ℕ} (b : Arr 1 k) (z : Fin k → EReal) : Fin k → EReal :=
  fun c => max (z c + b (ix2 (0 : Fin 1) c)) zeroF

/-- A row's maximum: the fold of "max" from minus infinity. -/
def rowMax {k : ℕ} (y : Fin k → EReal) : EReal := (Finset.univ : Finset (Fin k)).fold max negInfF y

/-- The row shifted by its maximum. -/
def shifted {k : ℕ} (y : Fin k → EReal) : Fin k → EReal := fun c => y c - rowMax y

/-- The logarithm of the softmax of a row. -/
def logSoftmax {k : ℕ} (y : Fin k → EReal) : Fin k → EReal :=
  fun c => shifted y c - Ideal.log (∑ l : Fin k, Ideal.exp (shifted y l))

/-- Add the one-row array, then the logarithm of the softmax. -/
def lsmRow {k : ℕ} (b : Arr 1 k) (z : Fin k → EReal) : Fin k → EReal :=
  logSoftmax fun c => z c + b (ix2 (0 : Fin 1) c)

/-- Minus infinity is the unit of "max". -/
theorem max_negInfF (y : EReal) : max negInfF y = y := by
  unfold negInfF; simp [Ideal.ofBits, Ideal.ieee]

theorem zeroF_eq : zeroF = 0 := Ideal.ofBits_zero_f32

/-! ## The layers -/

/-- The linear layer: every row times the matrix. -/
def lin {n k q : ℕ} (x : Arr n k) (w : Arr k q) : Arr n q := rowMap (linRow w) x
/-- Bias, then the maximum with zero. -/
def relu {n k : ℕ} (a : Arr n k) (b : Arr 1 k) : Arr n k := rowMap (reluRow b) a
/-- Bias, then the logarithm of the softmax along the row. -/
def lsm {n k : ℕ} (a : Arr n k) (b : Arr 1 k) : Arr n k := rowMap (lsmRow b) a

end GcnSpec

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowOps.lean ====
/-
  The programs' operation chains as row-wise layers.

  Each lemma takes a chain of vector operations exactly as one of the two programs spells it, over arrays with ANY
  number "n" of rows, and says it is a layer of GcnSpec: a matrix unit's product onto the zero accumulator and the
  host's dot_general are both "lin"; bias-add followed by the maximum with zero is "relu", whether the bias arrives
  as a loaded one-row block broadcast over the rows or as a vector broadcast twice on the host; and the shifted
  log-sum-exp chain is the logarithm of the softmax of every row, whether the row's maximum and the row's sum are
  lane reductions or host reductions (the host takes one more maximum with minus infinity, which changes nothing).
  All reductions are over the second axis; a reduced vector is put back beside the rows as a one-column array.
-/
import Idealize.ShloMosaic.Lib.Pipeline.Value
import Idealize.ShloMosaic.Lib.ValueIdx
import Idealize.ShloMosaic.Lib.ValueLayout
import Idealize.ShloMosaic.PureOps.Ideal.Laws
import proofs.«167572_j63075889709536_1_alg».proof.Proof.LibRowWise
import proofs.«167572_j63075889709536_1_alg».proof.Proof.LibMatProd
import proofs.«167572_j63075889709536_1_alg».proof.Proof.LibRowCol
import proofs.«167572_j63075889709536_1_alg».proof.Proof.LibLayout

noncomputable section

open scoped BigOperators

namespace GcnOps

open Idealize.ShloMosaic Idealize.ShloMosaic.ValueIdx GcnSpec

variable {n k q : ℕ}

/-! ## The linear layer -/

/-- A matrix unit's product of rank-2 operands onto the zero accumulator is the linear layer. -/
theorem matmul_zero_eq_lin {φ₁ φ₂ : FTy}
    (d : DotDims (⟨2, ![n, k]⟩ : Shape) (⟨2, ![k, q]⟩ : Shape) (⟨2, ![n, q]⟩ : Shape)) (prec : Option ContractPrecision)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.matmul d prec lhs rhs (constant (F := Ideal) (⟨2, ![n, q]⟩ : Shape) .f32 0x00000000#32) = lin lhs rhs :=
  eq_rowMap _ _ _ fun r c => (MatProd.matmul_zero_entry d prec hr hs hl0 hl1 hr0 hr1 lhs rhs r c).trans rfl

/-- The host's dot_general of rank-2 operands, one axis contracted, is the linear layer. -/
theorem dotGeneral_eq_lin {φ₁ φ₂ : FTy}
    (d : DotDims (⟨2, ![n, k]⟩ : Shape) (⟨2, ![k, q]⟩ : Shape) (⟨2, ![n, q]⟩ : Shape)) (prec : Option ContractPrecision)
    (sched : HostSchedule)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.dotGeneral d prec sched lhs rhs = lin lhs rhs := by
  refine eq_rowMap _ _ _ fun r c => ?_
  rw [Ideal.dotGeneral_apply, ← Equiv.sum_comp (contrEquiv1 d k hr hs).symm]
  show _ = ∑ l : Fin k, lhs (ix2 r l) * rhs (ix2 l c)
  refine Finset.sum_congr rfl fun l _ => ?_
  have hk := contrEquiv1_symm_val d k hr hs l
  have el : d.lhsIdx (ix2 r c) ((contrEquiv1 d k hr hs).symm l) = ix2 r l := funext fun a => Fin.ext (by
    match a with
    | ⟨0, _⟩ => exact hl0 _ _
    | ⟨1, _⟩ => exact (hl1 _ _).trans hk)
  have er : d.rhsIdx (ix2 r c) ((contrEquiv1 d k hr hs).symm l) = ix2 l c := funext fun a => Fin.ext (by
    match a with
    | ⟨0, _⟩ => exact (hr0 _ _).trans hk
    | ⟨1, _⟩ => exact hr1 _ _)
  rw [el, er]

/-! ## Bias, then the maximum with zero -/

/-- As a kernel body spells it: the block and the one-row bias block loaded (casts to their own shapes), the bias
    broadcast over the rows, the zero a scalar splat. -/
theorem relu_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x h1) (broadcastTo ⟨2, ![n, k]⟩ (shapeCast ⟨2, ![1, k]⟩ b h2) hb))
      (broadcast ⟨2, ![n, k]⟩ (Scalar.ofBits (F := Ideal) .f32 0x00000000#32)) = relu x b := by
  rw [shapeCast_self, shapeCast_self]
  refine eq_rowMap _ _ _ fun r c => ?_
  rw [maximumf_apply, addf_apply, broadcast_apply, broadcastTo_1b_ab_apply]
  rfl

/-- The one-row view of a vector, broadcast over the rows on the host in two steps, read at coordinates. -/
theorem bias_host_apply (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) (r : Fin n) (c : Fin k) :
    broadcastInDim (⟨2, ![n, k]⟩ : Shape) (![0, 1] : Fin 2 → Fin 2) h2
        (broadcastInDim (⟨2, ![1, k]⟩ : Shape) (![1] : Fin 1 → Fin 2) h1 b) (ix2 r c)
      = shapeCast ⟨2, ![1, k]⟩ b hsc (ix2 (0 : Fin 1) c) := by
  have hc := c.isLt
  rw [broadcastInDim_apply _ h2 _ (ix2 r c) (ix2 (0 : Fin 1) c) (fun a => match a with
      | ⟨0, _⟩ => by show (0 : ℕ) = if (1 : ℕ) = 1 then 0 else r.val; rw [if_pos rfl]
      | ⟨1, _⟩ => by show c.val = if k = 1 then 0 else c.val; split <;> omega),
    broadcastInDim_apply _ h1 b (ix2 (0 : Fin 1) c) (ix1 c) (fun a => match a with
      | ⟨0, _⟩ => by show c.val = if k = 1 then 0 else c.val; split <;> omega),
    shapeCast_a_1a_apply]

/-- As the host spells it: the bias vector broadcast in two steps, the zero a rank-0 constant broadcast. -/
theorem relu_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (h0 : (⟨0, ![]⟩ : Shape).BroadcastsInDim (⟨2, ![n, k]⟩ : Shape) (![] : Fin 0 → Fin 2))
    (hsc : (⟨1, ![k]⟩ : Shape).ShapeCasts ⟨2, ![1, k]⟩) :
    maximumf (addf a (broadcastInDim (⟨2, ![n, k]⟩ : Shape) (![0, 1] : Fin 2 → Fin 2) h2
        (broadcastInDim (⟨2, ![1, k]⟩ : Shape) (![1] : Fin 1 → Fin 2) h1 b)))
      (broadcastInDim (⟨2, ![n, k]⟩ : Shape) (![] : Fin 0 → Fin 2) h0 (constant (F := Ideal) (⟨0, ![]⟩ : Shape) .f32 0x00000000#32))
      = relu a (shapeCast ⟨2, ![1, k]⟩ b hsc) := by
  refine eq_rowMap _ _ _ fun r c => ?_
  rw [maximumf_apply, addf_apply, bias_host_apply b h1 h2 hsc r c,
    broadcastInDim_apply _ h0 _ (ix2 r c) ix0 (fun a => a.elim0), constant_apply]
  rfl

/-! ## The logarithm of the softmax -/

/-- The exponential and the logarithm, a body's and the host's, read at an index. -/
theorem exp_apply {s : Shape} (v : FVec Ideal s .f32) (i : s.Idx) : exp v i = Ideal.exp (v i) := rfl
theorem log_apply {s : Shape} (v : FVec Ideal s .f32) (i : s.Idx) : log v i = Ideal.log (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- Index (r, l) is the reduced index r with the coordinate l put back on axis 1. -/
theorem lift1 (h : (⟨2, ![n, k]⟩ : Shape).Reduces [1] (⟨1, ![n]⟩ : Shape)) (r : Fin n)
    (l : Fin ((⟨2, ![n, k]⟩ : Shape).size 1)) : h.lift (ix1 r) l = ix2 r (⟨l.val, l.isLt⟩ : Fin k) :=
  funext fun ax => Fin.ext (by match ax with | ⟨0, _⟩ => rfl | ⟨1, _⟩ => rfl)

/-- A lane maximum along the row, from minus infinity, is the row's maximum. -/
theorem rowMax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ) (r : Fin n) :
    multiReduction .maximumf [1] (⟨1, ![n]⟩ : Shape) y 0xFF800000#32 hR hφ hacc (ix1 r) = rowMax (row y r) := by
  refine (Ideal.multiReduction_maximumf_single y 0xFF800000#32 hR hφ hacc (ix1 r)).trans ?_
  have hf : (y ∘ hR.lift (ix1 r)) = fun l : Fin k => y (ix2 r l) := funext fun l => congrArg y (lift1 hR r l)
  exact congrArg (fun f => Finset.fold max negInfF f (Finset.univ : Finset (Fin k))) hf

/-- The host's reduce with a maximum body along the row, from minus infinity, is the row's maximum. -/
theorem rowMax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduce FloatOps.maximumf y (constant (F := Ideal) (⟨0, ![]⟩ : Shape) .f32 0xFF800000#32) hR' hu (ix1 r)
      = rowMax (row y r) := by
  rw [Host.reduce_eq_fold_single FloatOps.maximumf y _ hR' hR hu]
  have hf : (y ∘ hR.lift (ix1 r)) = fun l : Fin k => y (ix2 r l) := funext fun l => congrArg y (lift1 hR r l)
  exact congrArg (fun f => Finset.fold max negInfF f (Finset.univ : Finset (Fin k))) hf

/-- A lane sum along the row. -/
theorem rowSum_body (y : FVec Ideal (⟨2, ![n, k]⟩ : Shape) .f32)
    (hR : (⟨2, ![n, k]⟩ : Shape).Reduces [1] (⟨1, ![n]⟩ : Shape)) (hφ : FKind.Formats .f32)
    (hacc : (0x00000000#32 : BitVec 32) = FKind.add.neutral .f32 hφ) (r : Fin n) :
    multiReduction .add [1] (⟨1, ![n]⟩ : Shape) y 0x00000000#32 hR hφ hacc (ix1 r) = ∑ l : Fin k, y (ix2 r l) :=
  PushPull.Layout.sum_ab_1 y 0x00000000#32 hR hφ hacc r

/-- The host's sum along the row, from zero. -/
theorem rowSum_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduceAdd y (constant (F := Ideal) (⟨0, ![]⟩ : Shape) .f32 0x00000000#32) hR' hu (ix1 r) = ∑ l : Fin k, y (ix2 r l) := by
  simp only [Host.reduceAdd, Ideal.hostReduceAdd_def]
  rw [Ideal.hostReduceAdd_single hR' hR, constant_apply, Ideal.ofBits_zero_f32, zero_add]
  exact Finset.sum_congr rfl fun l _ => congrArg y (lift1 hR r l)

/-- The row shifted by its maximum, as a kernel body spells it. -/
def shiftBody (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩) :
    FVec Ideal (⟨2, ![n, k]⟩ : Shape) .f32 :=
  subf y (broadcastTo ⟨2, ![n, k]⟩
    (shapeCast ⟨2, ![n, 1]⟩ (multiReduction .maximumf [1] (⟨1, ![n]⟩ : Shape) y 0xFF800000#32 hR hφ hacc) hc) hb)

theorem shiftBody_apply (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩)
    (r : Fin n) (c : Fin k) : shiftBody y hR hφ hacc hc hb (ix2 r c) = shifted (row y r) c := by
  unfold shiftBody
  rw [subf_apply, RowCol.broadcastTo_a1_ab_apply, RowCol.shapeCast_a_a1_apply, rowMax_body]
  rfl

/-- The logarithm of the softmax of every row, as a kernel body spells it. -/
theorem logSoftmax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody y hR hφ hacc hc hb) (broadcastTo ⟨2, ![n, k]⟩
      (log (shapeCast ⟨2, ![n, 1]⟩
        (multiReduction .add [1] (⟨1, ![n]⟩ : Shape) (exp (shiftBody y hR hφ hacc hc hb)) 0x00000000#32 hR hφ hacc0) hc)) hb)
      = rowMap logSoftmax y := by
  refine eq_rowMap _ _ _ fun r c => ?_
  rw [subf_apply, shiftBody_apply, RowCol.broadcastTo_a1_ab_apply, log_apply, RowCol.shapeCast_a_a1_apply, rowSum_body]
  show _ = shifted (row y r) c - Ideal.log (∑ l : Fin k, Ideal.exp (shifted (row y r) l))
  refine congrArg (fun s => shifted (row y r) c - Ideal.log s) (Finset.sum_congr rfl fun l _ => ?_)
  rw [exp_apply, shiftBody_apply]

/-- The whole last-layer body: bias added to the loaded block, then the logarithm of the softmax. -/
theorem lsm_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hbb : (⟨2, ![1, k]⟩ : Shape).Broadcasts ⟨2, ![n, k]⟩)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody (addf (shapeCast ⟨2, ![n, k]⟩ x h1) (broadcastTo ⟨2, ![n, k]⟩ (shapeCast ⟨2, ![1, k]⟩ b h2) hbb)) hR hφ hacc hc hb)
      (broadcastTo ⟨2, ![n, k]⟩ (log (shapeCast ⟨2, ![n, 1]⟩ (multiReduction .add [1] (⟨1, ![n]⟩ : Shape)
        (exp (shiftBody (addf (shapeCast ⟨2, ![n, k]⟩ x h1) (broadcastTo ⟨2, ![n, k]⟩ (shapeCast ⟨2, ![1, k]⟩ b h2) hbb)) hR hφ hacc hc hb))
        0x00000000#32 hR hφ hacc0) hc)) hb)
      = lsm x b := by
  rw [logSoftmax_body, shapeCast_self, shapeCast_self]
  refine eq_rowMap _ _ _ fun r c => ?_
  rw [rowMap_ix2]
  refine congrFun (congrArg logSoftmax (funext fun l => ?_)) c
  show addf x (broadcastTo ⟨2, ![n, k]⟩ b hbb) (ix2 r l) = x (ix2 r l) + b (ix2 (0 : Fin 1) l)
  rw [addf_apply, broadcastTo_1b_ab_apply]

/-- The row shifted by its maximum, as the host spells it: the reduced maximum once more against minus infinity, then
    put back beside the rows by two broadcasts. -/
def shiftHost (y : FVec Ideal (⟨2, ![n, k]⟩ : Shape) .f32)
    (hR' : (⟨2, ![n, k]⟩ : Shape).ReducesTo [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    FVec Ideal (⟨2, ![n, k]⟩ : Shape) .f32 :=
  subf y (broadcastInDim (⟨2, ![n, k]⟩ : Shape) (![0, 1] : Fin 2 → Fin 2) hrow
    (broadcastInDim (⟨2, ![n, 1]⟩ : Shape) (![0] : Fin 1 → Fin 2) hcol
      (maximumf (broadcastInDim (⟨1, ![n]⟩ : Shape) (![] : Fin 0 → Fin 1) h0 (constant (F := Ideal) (⟨0, ![]⟩ : Shape) .f32 0xFF800000#32))
        (Host.reduce FloatOps.maximumf y (constant (F := Ideal) (⟨0, ![]⟩ : Shape) .f32 0xFF800000#32) hR' hu))))

/-- A vector put beside the rows by the host's two broadcasts, read at coordinates. -/
theorem col_host_apply (v : FVec Ideal (⟨1, ![n]⟩ : Shape) .f32)
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) :
    broadcastInDim (⟨2, ![n, k]⟩ : Shape) (![0, 1] : Fin 2 → Fin 2) hrow
      (broadcastInDim (⟨2, ![n, 1]⟩ : Shape) (![0] : Fin 1 → Fin 2) hcol v) (ix2 r c) = v (ix1 r) := by
  have hr := r.isLt
  rw [broadcastInDim_apply _ hrow _ (ix2 r c) (ix2 r (0 : Fin 1)) (fun a => match a with
      | ⟨0, _⟩ => by show r.val = if n = 1 then 0 else r.val; split <;> omega
      | ⟨1, _⟩ => by show (0 : ℕ) = if (1 : ℕ) = 1 then 0 else c.val; rw [if_pos rfl]),
    broadcastInDim_apply _ hcol v (ix2 r (0 : Fin 1)) (ix1 r) (fun a => match a with
      | ⟨0, _⟩ => by show r.val = if n = 1 then 0 else r.val; split <;> omega)]

theorem shiftHost_apply (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) : shiftHost y hR' hu h0 hcol hrow (ix2 r c) = shifted (row y r) c := by
  unfold shiftHost
  rw [subf_apply, col_host_apply, maximumf_apply,
    broadcastInDim_apply _ h0 _ (ix1 r) ix0 (fun a => a.elim0), constant_apply, rowMax_host y hR' hR hu r]
  show y (ix2 r c) - max negInfF (rowMax (row y r)) = _
  rw [max_negInfF]
  rfl

/-- The logarithm of the softmax of every row, as the host spells it. -/
theorem logSoftmax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    subf (shiftHost y hR' hu h0 hcol hrow)
      (broadcastInDim (⟨2, ![n, k]⟩ : Shape) (![0, 1] : Fin 2 → Fin 2) hrow
        (Host.log (broadcastInDim (⟨2, ![n, 1]⟩ : Shape) (![0] : Fin 1 → Fin 2) hcol
          (Host.reduceAdd (Host.exp (shiftHost y hR' hu h0 hcol hrow))
            (constant (F := Ideal) (⟨0, ![]⟩ : Shape) .f32 0x00000000#32) hR' hu))))
      = rowMap logSoftmax y := by
  have hr1 : ∀ r : Fin n, (if n = 1 then 0 else r.val) = r.val := fun r => by have := r.isLt; split <;> omega
  refine eq_rowMap _ _ _ fun r c => ?_
  rw [subf_apply, shiftHost_apply y hR' hR hu h0 hcol hrow r c,
    broadcastInDim_apply _ hrow _ (ix2 r c) (ix2 r (0 : Fin 1)) (fun a => match a with
      | ⟨0, _⟩ => (hr1 r).symm
      | ⟨1, _⟩ => by show (0 : ℕ) = if (1 : ℕ) = 1 then 0 else c.val; rw [if_pos rfl]), hostLog_apply,
    broadcastInDim_apply _ hcol _ (ix2 r (0 : Fin 1)) (ix1 r) (fun a => match a with
      | ⟨0, _⟩ => (hr1 r).symm), rowSum_host _ hR' hR hu r]
  show _ = shifted (row y r) c - Ideal.log (∑ l : Fin k, Ideal.exp (shifted (row y r) l))
  refine congrArg (fun s => shifted (row y r) c - Ideal.log s) (Finset.sum_congr rfl fun l _ => ?_)
  rw [hostExp_apply, shiftHost_apply y hR' hR hu h0 hcol hrow r l]

/-- The host's last layer: bias broadcast in two steps and added, then the logarithm of the softmax. -/
theorem lsm_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) :
    rowMap logSoftmax (addf a (broadcastInDim (⟨2, ![n, k]⟩ : Shape) (![0, 1] : Fin 2 → Fin 2) h2
        (broadcastInDim (⟨2, ![1, k]⟩ : Shape) (![1] : Fin 1 → Fin 2) h1 b)))
      = lsm a (shapeCast ⟨2, ![1, k]⟩ b hsc) := by
  refine eq_rowMap _ _ _ fun r c => ?_
  rw [rowMap_ix2]
  refine congrFun (congrArg logSoftmax (funext fun l => ?_)) c
  show addf a _ (ix2 r l) = a (ix2 r l) + shapeCast ⟨2, ![1, k]⟩ b hsc (ix2 (0 : Fin 1) l)
  rw [addf_apply, bias_host_apply b h1 h2 hsc r l]

end GcnOps

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.Payloads.lean ====
/-
  What each of the four kernel bodies computes from the blocks it loads, as a row-wise layer.

  At exact arithmetic a change of float format is the identity and a cast of an array to its own shape changes
  nothing, so the body of the first and third kernel is the block times the weight matrix, accumulated onto zero
  ("lin"); the body of the second is bias-add then the maximum with zero ("relu"); the body of the fourth is bias-add
  then the logarithm of the softmax of every row ("lsm").  Each is one of the body spellings of the row-wise layers.
-/
import proofs.«167572_j63075889709536_1_alg».proof.Proof.Gen.KernelIdeal.Skeleton
import proofs.«167572_j63075889709536_1_alg».proof.Proof.LibRowOps
import proofs.«167572_j63075889709536_1_alg».proof.Proof.LibDot2

noncomputable section

namespace Cert.Gcn

open Idealize.ShloMosaic Idealize.ShloMosaic.ValueIdx Cert.KernelIdeal Cert.KernelIdeal.Gen GcnSpec

/-- The first kernel's body: the block of node features times the first weight matrix. -/
theorem pay0 (x0 : Vec Ideal S10000x128 .f32) (x1 : Vec Ideal S128x64 .f32) :
    k0_pay1 (F := Ideal) x0 x1 = lin x0 x1 := by
  unfold k0_pay1
  exact GcnOps.matmul_zero_eq_lin dot_S10000x128_S128x64_S10000x64_1_0_0_1_n_n none
    (Dot2.rank_contr _ rfl) (Dot2.size_contr _ rfl _) (Dot2.lhs0 _ rfl rfl) (Dot2.lhs1 _ rfl _)
    (Dot2.rhs0 _ rfl _) (Dot2.rhs1 _ rfl rfl rfl rfl) _ _

/-- The second kernel's body: the one-row bias added to every row, then the maximum with zero. -/
theorem pay1 (x0 : Vec Ideal S10000x64 .f32) (x1 : Vec Ideal S1x64 .f32) :
    k1_pay1 (F := Ideal) x0 x1 = relu x0 x1 := by
  unfold k1_pay1
  exact GcnOps.relu_body x0 x1 _ _ _

/-- The third kernel's body: the block of hidden features times the second weight matrix. -/
theorem pay2 (x0 : Vec Ideal S10000x64 .f32) (x1 : Vec Ideal S64x16 .f32) :
    k2_pay1 (F := Ideal) x0 x1 = lin x0 x1 := by
  unfold k2_pay1
  refine (GcnOps.matmul_zero_eq_lin dot_S10000x64_S64x16_S10000x16_1_0_0_1_n_n none
    (Dot2.rank_contr _ rfl) (Dot2.size_contr _ rfl _) (Dot2.lhs0 _ rfl rfl) (Dot2.lhs1 _ rfl _)
    (Dot2.rhs0 _ rfl _) (Dot2.rhs1 _ rfl rfl rfl rfl) _ _).trans ?_
  rw [shapeCast_self]
  rfl

/-- The fourth kernel's body: the one-row bias added to every row, then the logarithm of the row's softmax. -/
theorem pay3 (x0 : Vec Ideal S10000x16 .f32) (x1 : Vec Ideal S1x16 .f32) :
    k3_pay1 (F := Ideal) x0 x1 = lsm x0 x1 := by
  unfold k3_pay1
  exact GcnOps.lsm_body x0 x1 _ _ _ _ _ _ _ _ _

end Cert.Gcn

end
-- ==== Proof.Blocks0.lean ====
/-
  Region 0 of the program, from blocks to the whole array: the node features times the first weight matrix.

  The region runs its kernel body at ten grid points.  At point t the body sees rows 10000 t, ..., 10000 t + 9999 of
  its first operand (a block of 10000 rows), the whole of its small second operand, and writes rows 10000 t, ... of
  the result.  The layer is row-wise: row r of its result depends on row r of its first operand only.  So the block
  the body writes at point t is exactly block t of the layer applied to the WHOLE first operand (the band law), the
  ten blocks cover the result array, and the array ends holding the layer of the whole operand.
-/
import proofs.«167572_j63075889709536_1_alg».proof.Proof.Gen.KernelIdeal.Frame
import proofs.«167572_j63075889709536_1_alg».proof.Proof.Payloads

set_option maxRecDepth 16384

noncomputable section

namespace Cert.Gcn

open Idealize.ShloMosaic Idealize.ShloMosaic.TcCoe Idealize.ShloMosaic.ValueIdx Idealize.SL.Sem
open Idealize.ShloMosaic.Pipeline (Dat)
open Cert.KernelIdeal Cert.KernelIdeal.Gen GcnSpec

variable (V : (c : Dev nD) → (b : Ref sig .tc) → Buf (Elt Ideal) ((c : Thread nD τ).loc b))

/-- The zero offsets of a whole-block access, however they are spelt. -/
theorem zeroOff0 : (![0, 0] : Fin 2 → Nat) = fun _ => 0 := funext fun a => by fin_cases a <;> rfl

/-- The three index maps at every grid point: the first operand's and the result's block is (t, 0), the second
    operand's is always (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the layer of the whole arrays. -/
theorem flushed0 (c : Dev nD) (t : Fin cfg0.N) :
    (dat0 (F := Ideal) V c).flushed 2 t
      = ((cfg0.win 2).blk t).view.read (Elt Ideal) (lin (V c main_arg0) (V c main_arg3)) := by
  show (cfg0.win 2).cut (grid0.coords t) ((dat0 V c).after 2 t) = _
  rw [after0_2]
  unfold out0_2
  rw [View.canon_unit_zero zeroOff0]
  simp only [View.ld_unit_zero (S := S10000x128) zeroOff0, View.ld_unit_zero (S := S128x64) zeroOff0]
  rw [pay0]
  obtain ⟨e00, e01, e10, e11, e20, e21⟩ := idx0 t
  -- the second operand's block is the whole second operand
  have hw : iblk0 V c 1 t = V c main_arg3 := by
    funext y
    show V c main_arg3 (((cfg0.win 1).blk t).view.emb y) = V c main_arg3 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 64 + 1 * (y 1).val = (y 1).val; omega
  funext j
  show lin (iblk0 V c 0 t) (iblk0 V c 1 t) j
    = lin (V c main_arg0) (V c main_arg3) (((cfg0.win 2).blk t).view.emb j)
  rw [hw]
  -- the band law: rows 10000 t, ... of the layer of the whole operand are the layer of those rows
  exact (rowMap_band (linRow (V c main_arg3)) (V c main_arg0) (t.val * 10000)
    (fun y => ((cfg0.win 0).blk t).view.emb y) (fun y => ((cfg0.win 2).blk t).view.emb y)
    (fun y => by show win0_0.index t (0 : Fin 2) * 10000 + 1 * (y 0).val = t.val * 10000 + (y 0).val; omega)
    (fun y => by show win0_0.index t (1 : Fin 2) * 128 + 1 * (y 1).val = (y 1).val; omega)
    (fun y => by show win0_2.index t (0 : Fin 2) * 10000 + 1 * (y 0).val = t.val * 10000 + (y 0).val; omega)
    (fun y => by show win0_2.index t (1 : Fin 2) * 64 + 1 * (y 1).val = (y 1).val; omega) j).symm

/-- An index of the result array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v0).slice (win0_2.rect t)).set ↔ _
  rw [View.set_slice_whole, Rect.mem_set_unit]
  exact Iff.rfl

/-- Every index of the result array is in some point's block: row r is in block r / 10000. -/
theorem cover0 (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e20, e21⟩ := idx0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The result array after the region: the layer of the arrays the region found. -/
theorem final0 (c : Dev nD) :
    (dat0 (F := Ideal) V c).arrAt 2 cfg0.N = lin (V c main_arg0) (V c main_arg3) :=
  (dat0 (F := Ideal) V c).arrAt_eq_of_cover 2 (lin (V c main_arg0) (V c main_arg3))
    (fun t _ => flushed0 V c t) (cover0)

end Cert.Gcn

end
-- ==== Proof.Blocks1.lean ====
/-
  Region 1 of the program, from blocks to the whole array: the first bias added to the aggregated features, then the maximum with zero.

  The region runs its kernel body at ten grid points.  At point t the body sees rows 10000 t, ..., 10000 t + 9999 of
  its first operand (a block of 10000 rows), the whole of its small second operand, and writes rows 10000 t, ... of
  the result.  The layer is row-wise: row r of its result depends on row r of its first operand only.  So the block
  the body writes at point t is exactly block t of the layer applied to the WHOLE first operand (the band law), the
  ten blocks cover the result array, and the array ends holding the layer of the whole operand.
-/
import proofs.«167572_j63075889709536_1_alg».proof.Proof.Gen.KernelIdeal.Frame
import proofs.«167572_j63075889709536_1_alg».proof.Proof.Payloads

set_option maxRecDepth 16384

noncomputable section

namespace Cert.Gcn

open Idealize.ShloMosaic Idealize.ShloMosaic.TcCoe Idealize.ShloMosaic.ValueIdx Idealize.SL.Sem
open Idealize.ShloMosaic.Pipeline (Dat)
open Cert.KernelIdeal Cert.KernelIdeal.Gen GcnSpec

variable (V : (c : Dev nD) → (b : Ref sig .tc) → Buf (Elt Ideal) ((c : Thread nD τ).loc b))

/-- The zero offsets of a whole-block access, however they are spelt. -/
theorem zeroOff1 : (![0, 0] : Fin 2 → Nat) = fun _ => 0 := funext fun a => by fin_cases a <;> rfl

/-- The three index maps at every grid point: the first operand's and the result's block is (t, 0), the second
    operand's is always (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the layer of the whole arrays. -/
theorem flushed1 (c : Dev nD) (t : Fin cfg1.N) :
    (dat1 (F := Ideal) V c).flushed 2 t
      = ((cfg1.win 2).blk t).view.read (Elt Ideal) (relu (V c main_v45) (V c main_v46)) := by
  show (cfg1.win 2).cut (grid1.coords t) ((dat1 V c).after 2 t) = _
  rw [after1_2]
  unfold out1_2
  rw [View.canon_unit_zero zeroOff1]
  simp only [View.ld_unit_zero (S := S10000x64) zeroOff1, View.ld_unit_zero (S := S1x64) zeroOff1]
  rw [pay1]
  obtain ⟨e00, e01, e10, e11, e20, e21⟩ := idx1 t
  -- the second operand's block is the whole second operand
  have hw : iblk1 V c 1 t = V c main_v46 := by
    funext y
    show V c main_v46 (((cfg1.win 1).blk t).view.emb y) = V c main_v46 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 64 + 1 * (y 1).val = (y 1).val; omega
  funext j
  show relu (iblk1 V c 0 t) (iblk1 V c 1 t) j
    = relu (V c main_v45) (V c main_v46) (((cfg1.win 2).blk t).view.emb j)
  rw [hw]
  -- the band law: rows 10000 t, ... of the layer of the whole operand are the layer of those rows
  exact (rowMap_band (reluRow (V c main_v46)) (V c main_v45) (t.val * 10000)
    (fun y => ((cfg1.win 0).blk t).view.emb y) (fun y => ((cfg1.win 2).blk t).view.emb y)
    (fun y => by show win1_0.index t (0 : Fin 2) * 10000 + 1 * (y 0).val = t.val * 10000 + (y 0).val; omega)
    (fun y => by show win1_0.index t (1 : Fin 2) * 64 + 1 * (y 1).val = (y 1).val; omega)
    (fun y => by show win1_2.index t (0 : Fin 2) * 10000 + 1 * (y 0).val = t.val * 10000 + (y 0).val; omega)
    (fun y => by show win1_2.index t (1 : Fin 2) * 64 + 1 * (y 1).val = (y 1).val; omega) j).symm

/-- An index of the result array is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v47).slice (win1_2.rect t)).set ↔ _
  rw [View.set_slice_whole, Rect.mem_set_unit]
  exact Iff.rfl

/-- Every index of the result array is in some point's block: row r is in block r / 10000. -/
theorem cover1 (i : S100000x64.Idx) :
    ∃ t : Fin cfg1.N, (cfg1.win 2).flush t = true ∧ i ∈ ((cfg1.win 2).blk t).view.set := by
  have hi0 : (i 0).val < 100000 := idx2_lt0 i
  have hi1 : (i 1).val < 64 := idx2_lt1 i
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, e20, e21⟩ := idx1 t
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

/-- The result array after the region: the layer of the arrays the region found. -/
theorem final1 (c : Dev nD) :
    (dat1 (F := Ideal) V c).arrAt 2 cfg1.N = relu (V c main_v45) (V c main_v46) :=
  (dat1 (F := Ideal) V c).arrAt_eq_of_cover 2 (relu (V c main_v45) (V c main_v46))
    (fun t _ => flushed1 V c t) (cover1)

end Cert.Gcn

end
-- ==== Proof.Blocks2.lean ====
/-
  Region 2 of the program, from blocks to the whole array: the hidden features times the second weight matrix.

  The region runs its kernel body at ten grid points.  At point t the body sees rows 10000 t, ..., 10000 t + 9999 of
  its first operand (a block of 10000 rows), the whole of its small second operand, and writes rows 10000 t, ... of
  the result.  The layer is row-wise: row r of its result depends on row r of its first operand only.  So the block
  the body writes at point t is exactly block t of the layer applied to the WHOLE first operand (the band law), the
  ten blocks cover the result array, and the array ends holding the layer of the whole operand.
-/
import proofs.«167572_j63075889709536_1_alg».proof.Proof.Gen.KernelIdeal.Frame
import proofs.«167572_j63075889709536_1_alg».proof.Proof.Payloads

set_option maxRecDepth 16384

noncomputable section

namespace Cert.Gcn

open Idealize.ShloMosaic Idealize.ShloMosaic.TcCoe Idealize.ShloMosaic.ValueIdx Idealize.SL.Sem
open Idealize.ShloMosaic.Pipeline (Dat)
open Cert.KernelIdeal Cert.KernelIdeal.Gen GcnSpec

variable (V : (c : Dev nD) → (b : Ref sig .tc) → Buf (Elt Ideal) ((c : Thread nD τ).loc b))

/-- The zero offsets of a whole-block access, however they are spelt. -/
theorem zeroOff2 : (![0, 0] : Fin 2 → Nat) = fun _ => 0 := funext fun a => by fin_cases a <;> rfl

/-- The three index maps at every grid point: the first operand's and the result's block is (t, 0), the second
    operand's is always (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the layer of the whole arrays. -/
theorem flushed2 (c : Dev nD) (t : Fin cfg2.N) :
    (dat2 (F := Ideal) V c).flushed 2 t
      = ((cfg2.win 2).blk t).view.read (Elt Ideal) (lin (V c main_v47) (V c main_arg5)) := by
  show (cfg2.win 2).cut (grid2.coords t) ((dat2 V c).after 2 t) = _
  rw [after2_2]
  unfold out2_2
  rw [View.canon_unit_zero zeroOff2]
  simp only [View.ld_unit_zero (S := S10000x64) zeroOff2, View.ld_unit_zero (S := S64x16) zeroOff2]
  rw [pay2]
  obtain ⟨e00, e01, e10, e11, e20, e21⟩ := idx2 t
  -- the second operand's block is the whole second operand
  have hw : iblk2 V c 1 t = V c main_arg5 := by
    funext y
    show V c main_arg5 (((cfg2.win 1).blk t).view.emb y) = V c main_arg5 y
    refine congrArg _ (funext fun a => Fin.ext ?_)
    match a with
    | ⟨0, _⟩ => show win2_1.index t (0 : Fin 2) * 64 + 1 * (y 0).val = (y 0).val; omega
    | ⟨1, _⟩ => show win2_1.index t (1 : Fin 2) * 16 + 1 * (y 1).val = (y 1).val; omega
  funext j
  show lin (iblk2 V c 0 t) (iblk2 V c 1 t) j
    = lin (V c main_v47) (V c main_arg5) (((cfg2.win 2).blk t).view.emb j)
  rw [hw]
  -- the band law: rows 10000 t, ... of the layer of the whole operand are the layer of those rows
  exact (rowMap_band (linRow (V c main_arg5)) (V c main_v47) (t.val * 10000)
    (fun y => ((cfg2.win 0).blk t).view.emb y) (fun y => ((cfg2.win 2).blk t).view.emb y)
    (fun y => by show win2_0.index t (0 : Fin 2) * 10000 + 1 * (y 0).val = t.val * 10000 + (y 0).val; omega)
    (fun y => by show win2_0.index t (1 : Fin 2) * 64 + 1 * (y 1).val = (y 1).val; omega)
    (fun y => by show win2_2.index t (0 : Fin 2) * 10000 + 1 * (y 0).val = t.val * 10000 + (y 0).val; omega)
    (fun y => by show win2_2.index t (1 : Fin 2) * 16 + 1 * (y 1).val = (y 1).val; omega) j).symm

/-- An index of the result array is in point t's block iff each coordinate is in the block's range on its axis. -/
theorem mem_blk2 (t : Fin cfg2.N) (i : S100000x16.Idx) :
    i ∈ ((cfg2.win 2).blk t).view.set ↔ ∀ a : Fin 2, win2_2.index t a * S10000x16.size a ≤ (i a).val
      ∧ (i a).val < win2_2.index t a * S10000x16.size a + S10000x16.size a := by
  show i ∈ ((View.whole main_v48).slice (win2_2.rect t)).set ↔ _
  rw [View.set_slice_whole, Rect.mem_set_unit]
  exact Iff.rfl

/-- Every index of the result array is in some point's block: row r is in block r / 10000. -/
theorem cover2 (i : S100000x16.Idx) :
    ∃ t : Fin cfg2.N, (cfg2.win 2).flush t = true ∧ i ∈ ((cfg2.win 2).blk t).view.set := by
  have hi0 : (i 0).val < 100000 := idx2_lt0 i
  have hi1 : (i 1).val < 16 := idx2_lt1 i
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e20, e21⟩ := idx2 t
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 16 ≤ (i 1).val ∧ (i 1).val < win2_2.index t (1 : Fin 2) * 16 + 16
    omega

/-- The result array after the region: the layer of the arrays the region found. -/
theorem final2 (c : Dev nD) :
    (dat2 (F := Ideal) V c).arrAt 2 cfg2.N = lin (V c main_v47) (V c main_arg5) :=
  (dat2 (F := Ideal) V c).arrAt_eq_of_cover 2 (lin (V c main_v47) (V c main_arg5))
    (fun t _ => flushed2 V c t) (cover2)

end Cert.Gcn

end
-- ==== Proof.Blocks3.lean ====
/-
  Region 3 of the program, from blocks to the whole array: the second bias added to the aggregated features, then the logarithm of every row's softmax.

  The region runs its kernel body at ten grid points.  At point t the body sees rows 10000 t, ..., 10000 t + 9999 of
  its first operand (a block of 10000 rows), the whole of its small second operand, and writes rows 10000 t, ... of
  the result.  The layer is row-wise: row r of its result depends on row r of its first operand only.  So the block
  the body writes at point t is exactly block t of the layer applied to the WHOLE first operand (the band law), the
  ten blocks cover the result array, and the array ends holding the layer of the whole operand.
-/
import proofs.«167572_j63075889709536_1_alg».proof.Proof.Gen.KernelIdeal.Frame
import proofs.«167572_j63075889709536_1_alg».proof.Proof.Payloads

set_option maxRecDepth 16384

noncomputable section

namespace Cert.Gcn

open Idealize.ShloMosaic Idealize.ShloMosaic.TcCoe Idealize.ShloMosaic.ValueIdx Idealize.SL.Sem
open Idealize.ShloMosaic.Pipeline (Dat)
open Cert.KernelIdeal Cert.KernelIdeal.Gen GcnSpec

variable (V : (c : Dev nD) → (b : Ref sig .tc) → Buf (Elt Ideal) ((c : Thread nD τ).loc b))

/-- The zero offsets of a whole-block access, however they are spelt. -/
theorem zeroOff3 : (![0, 0] : Fin 2 → Nat) = fun _ => 0 := funext fun a => by fin_cases a <;> rfl

/-- The three index maps at every grid point: the first operand's and the result's block is (t, 0), the second
    operand's is always (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the layer of the whole arrays. -/
theorem flushed3 (c : Dev nD) (t : Fin cfg3.N) :
    (dat3 (F := Ideal) V c).flushed 2 t
      = ((cfg3.win 2).blk t).view.read (Elt Ideal) (lsm (V c main_v93) (V c main_v94)) := by
  show (cfg3.win 2).cut (grid3.coords t) ((dat3 V c).after 2 t) = _
  rw [after3_2]
  unfold out3_2
  rw [View.canon_unit_zero zeroOff3]
  simp only [View.ld_unit_zero (S := S10000x16) zeroOff3, View.ld_unit_zero (S := S1x16) zeroOff3]
  rw [pay3]
  obtain ⟨e00, e01, e10, e11, e20, e21⟩ := idx3 t
  -- the second operand's block is the whole second operand
  have hw : iblk3 V c 1 t = V c main_v94 := by
    funext y
    show V c main_v94 (((cfg3.win 1).blk t).view.emb y) = V c main_v94 y
    refine congrArg _ (funext fun a => Fin.ext ?_)
    match a with
    | ⟨0, _⟩ => show win3_1.index t (0 : Fin 2) * 1 + 1 * (y 0).val = (y 0).val; omega
    | ⟨1, _⟩ => show win3_1.index t (1 : Fin 2) * 16 + 1 * (y 1).val = (y 1).val; omega
  funext j
  show lsm (iblk3 V c 0 t) (iblk3 V c 1 t) j
    = lsm (V c main_v93) (V c main_v94) (((cfg3.win 2).blk t).view.emb j)
  rw [hw]
  -- the band law: rows 10000 t, ... of the layer of the whole operand are the layer of those rows
  exact (rowMap_band (lsmRow (V c main_v94)) (V c main_v93) (t.val * 10000)
    (fun y => ((cfg3.win 0).blk t).view.emb y) (fun y => ((cfg3.win 2).blk t).view.emb y)
    (fun y => by show win3_0.index t (0 : Fin 2) * 10000 + 1 * (y 0).val = t.val * 10000 + (y 0).val; omega)
    (fun y => by show win3_0.index t (1 : Fin 2) * 16 + 1 * (y 1).val = (y 1).val; omega)
    (fun y => by show win3_2.index t (0 : Fin 2) * 10000 + 1 * (y 0).val = t.val * 10000 + (y 0).val; omega)
    (fun y => by show win3_2.index t (1 : Fin 2) * 16 + 1 * (y 1).val = (y 1).val; omega) j).symm

/-- An index of the result array is in point t's block iff each coordinate is in the block's range on its axis. -/
theorem mem_blk3 (t : Fin cfg3.N) (i : S100000x16.Idx) :
    i ∈ ((cfg3.win 2).blk t).view.set ↔ ∀ a : Fin 2, win3_2.index t a * S10000x16.size a ≤ (i a).val
      ∧ (i a).val < win3_2.index t a * S10000x16.size a + S10000x16.size a := by
  show i ∈ ((View.whole main_v95).slice (win3_2.rect t)).set ↔ _
  rw [View.set_slice_whole, Rect.mem_set_unit]
  exact Iff.rfl

/-- Every index of the result array is in some point's block: row r is in block r / 10000. -/
theorem cover3 (i : S100000x16.Idx) :
    ∃ t : Fin cfg3.N, (cfg3.win 2).flush t = true ∧ i ∈ ((cfg3.win 2).blk t).view.set := by
  have hi0 : (i 0).val < 100000 := idx2_lt0 i
  have hi1 : (i 1).val < 16 := idx2_lt1 i
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, e20, e21⟩ := idx3 t
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 16 ≤ (i 1).val ∧ (i 1).val < win3_2.index t (1 : Fin 2) * 16 + 16
    omega

/-- The result array after the region: the layer of the arrays the region found. -/
theorem final3 (c : Dev nD) :
    (dat3 (F := Ideal) V c).arrAt 2 cfg3.N = lsm (V c main_v93) (V c main_v94) :=
  (dat3 (F := Ideal) V c).arrAt_eq_of_cover 2 (lsm (V c main_v93) (V c main_v94))
    (fun t _ => flushed3 V c t) (cover3)

end Cert.Gcn

end
-- ==== Proof.Net.lean ====
/-
  The whole network as one function of the seven argument arrays, over exact arithmetic.

  Two graph-convolution layers: the node features times the first weight matrix, the neighbourhood sum, the first
  bias and the maximum with zero; the result times the second weight matrix, the neighbourhood sum again, the second
  bias and the logarithm of every row's softmax.  A bias vector enters as a one-row array.  Both programs are shown to
  end with this array in their result buffer.
-/
import proofs.«167572_j63075889709536_1_alg».proof.Proof.HostAgg
import proofs.«167572_j63075889709536_1_alg».proof.Proof.LibRowWise

noncomputable section

namespace Cert.Gcn

open Idealize.ShloMosaic Cert.KernelIdeal Cert.KernelIdeal.Facts₀ GcnSpec

/-- The hidden features: relu of (aggregate of x * w1) + b1. -/
def hidden (x : (⟨S100000x128, .f32⟩ : BufTy).Contents (Elt Ideal)) (e : (⟨S2x1600000, .i32⟩ : BufTy).Contents (Elt Ideal))
    (w : (⟨S1600000, .f32⟩ : BufTy).Contents (Elt Ideal)) (w1 : (⟨S128x64, .f32⟩ : BufTy).Contents (Elt Ideal))
    (b1 : (⟨S64, .f32⟩ : BufTy).Contents (Elt Ideal)) : (⟨S100000x64, .f32⟩ : BufTy).Contents (Elt Ideal) :=
  relu (agg64 (F := Ideal) (lin x w1) e w) (shapeCast S1x64 b1 shapeCasts_S64_S1x64)

/-- The network's result: log-softmax of (aggregate of hidden * w2) + b2. -/
def net (x : (⟨S100000x128, .f32⟩ : BufTy).Contents (Elt Ideal)) (e : (⟨S2x1600000, .i32⟩ : BufTy).Contents (Elt Ideal))
    (w : (⟨S1600000, .f32⟩ : BufTy).Contents (Elt Ideal)) (w1 : (⟨S128x64, .f32⟩ : BufTy).Contents (Elt Ideal))
    (b1 : (⟨S64, .f32⟩ : BufTy).Contents (Elt Ideal)) (w2 : (⟨S64x16, .f32⟩ : BufTy).Contents (Elt Ideal))
    (b2 : (⟨S16, .f32⟩ : BufTy).Contents (Elt Ideal)) : (⟨S100000x16, .f32⟩ : BufTy).Contents (Elt Ideal) :=
  lsm (agg16 (F := Ideal) (lin (hidden x e w w1 b1) w2) e w) (shapeCast S1x16 b2 shapeCasts_S16_S1x16)

end Cert.Gcn

end
-- ==== Proof.KernelValue.lean ====
/-
  The idealized kernel's result buffer, as a function of the seven arguments.

  The last boundary's contents at the result buffer are what the fourth region leaves: the logarithm of the softmax of
  (its first operand + the second bias).  Its first operand is the neighbourhood sum of what the third region leaves:
  the second region's result times the second weight matrix.  The second region's result is the maximum with zero of
  (the neighbourhood sum of the first region's result + the first bias), and the first region leaves the node features
  times the first weight matrix.  Put together: the network "net" of the launch contents of the arguments.
-/
import proofs.«167572_j63075889709536_1_alg».proof.Proof.KernelHost
import proofs.«167572_j63075889709536_1_alg».proof.Proof.Blocks0
import proofs.«167572_j63075889709536_1_alg».proof.Proof.Blocks1
import proofs.«167572_j63075889709536_1_alg».proof.Proof.Blocks2
import proofs.«167572_j63075889709536_1_alg».proof.Proof.Blocks3
import proofs.«167572_j63075889709536_1_alg».proof.Proof.Net

set_option maxRecDepth 16384

noncomputable section

namespace Cert.Gcn

open Idealize.ShloMosaic Idealize.ShloMosaic.TcCoe Idealize.SL.Sem
open Cert.KernelIdeal Cert.KernelIdeal.Gen GcnSpec

variable (m : (ℓ : Loc nD τ sig) → Buf (Elt Ideal) ℓ) (ρ : Dev nD → PrngReg)

/-- After the first region its result array holds the node features times the first weight matrix. -/
theorem W1_v0 (c : Dev nD) :
    W1 m ρ c (Proc.devRef .tc main_v0) = lin (m ((c : Thread nD τ).loc main_arg0)) (m ((c : Thread nD τ).loc main_arg3)) :=
  (W1_arr m ρ c 2).trans (final0 (V0 m ρ) c)

/-- The second region's first operand: the neighbourhood sum of that product. -/
theorem V4_v45 (c : Dev nD) :
    V4 m ρ c main_v45 = agg64 (F := Ideal) (lin (m ((c : Thread nD τ).loc main_arg0)) (m ((c : Thread nD τ).loc main_arg3))) (m ((c : Thread nD τ).loc main_arg1)) (m ((c : Thread nD τ).loc main_arg2)) := by
  show W4 m ρ c (Proc.devRef .tc main_v45) = _
  rw [W4_v45, W1_v0, W1_arg1, W1_arg2]

/-- The second region's second operand: the first bias as a one-row array. -/
theorem V4_v46 (c : Dev nD) :
    V4 m ρ c main_v46 = shapeCast S1x64 (m ((c : Thread nD τ).loc main_arg4)) Facts₀.shapeCasts_S64_S1x64 := by
  show W4 m ρ c (Proc.devRef .tc main_v46) = _
  rw [W4_v46, W1_arg4]

/-- After the second region its result array holds the hidden features. -/
theorem W5_v47 (c : Dev nD) :
    W5 m ρ c (Proc.devRef .tc main_v47) = hidden (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((final1 (V4 m ρ) c).trans ?_)
  rw [V4_v45, V4_v46]
  rfl

/-- After the third region its result array holds the hidden features times the second weight matrix. -/
theorem W6_v48 (c : Dev nD) :
    W6 m ρ c (Proc.devRef .tc main_v48)
      = lin (hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  refine (W6_arr m ρ c 2).trans ((final2 (V5 m ρ) c).trans ?_)
  show lin (W5 m ρ c (Proc.devRef .tc main_v47)) (W5 m ρ c (Proc.devRef .tc main_arg5)) = _
  rw [W5_v47, W5_arg5]

/-- The fourth region's first operand: the neighbourhood sum of that product. -/
theorem V9_v93 (c : Dev nD) :
    V9 m ρ c main_v93
      = agg16 (F := Ideal) (lin (hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) (m ((c : Thread nD τ).loc main_arg1)) (m ((c : Thread nD τ).loc main_arg2)) := by
  show W9 m ρ c (Proc.devRef .tc main_v93) = _
  rw [W9_v93, W6_v48, W6_arg1, W6_arg2]

/-- The fourth region's second operand: the second bias as a one-row array. -/
theorem V9_v94 (c : Dev nD) :
    V9 m ρ c main_v94 = shapeCast S1x16 (m ((c : Thread nD τ).loc main_arg6)) Facts₀.shapeCasts_S16_S1x16 := by
  show W9 m ρ c (Proc.devRef .tc main_v94) = _
  rw [W9_v94, W6_arg6]

/-- THE KERNEL'S VALUE: the last boundary's contents at the result buffer are the network of the arguments. -/
theorem kernel_value (c : Dev nD) :
    W10 m ρ c (Proc.devRef .tc main_v95)
      = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ((final3 (V9 m ρ) c).trans ?_)
  rw [V9_v93, V9_v94]
  rfl

end Cert.Gcn

end
-- ==== Proof.RefLayers.lean ====
/-
  The reference program's result buffer, as a function of the seven arguments.

  The reference is 142 host operations in a row.  They are read in four stretches, the buffer contents between two
  stretches kept as one named valuation: "RA" after the first product, the first neighbourhood sum and the first bias;
  "RB" after the maximum with zero and the second product; "RC" after the second neighbourhood sum and the second bias;
  "RD" after the logarithm of the softmax.  Each stretch applies, to the buffers the stretch before left, exactly the
  operations of one layer as the host spells them; this part holds for any float arithmetic.  Over exact arithmetic
  the host spellings are the row-wise layers: a dot_general contracting the columns of its left operand against the
  rows of its right one is "lin"; a bias vector broadcast in two steps and added, then the maximum with a broadcast
  zero, is "relu"; the max-shifted log-sum-exp chain (with the host's extra maximum against minus infinity, which
  changes nothing) after the bias is "lsm".  So the reference ends with the same network "net" of the arguments as
  the kernel.
-/
import proofs.«167572_j63075889709536_1_alg».proof.Proof.RefRun
import proofs.«167572_j63075889709536_1_alg».proof.Proof.Net
import proofs.«167572_j63075889709536_1_alg».proof.Proof.LibRowOps
import proofs.«167572_j63075889709536_1_alg».proof.Proof.LibDot2

set_option maxRecDepth 16384

noncomputable section

namespace Cert.Gcn

open Idealize.ShloMosaic Idealize.ShloMosaic.TcCoe Idealize.SL.Sem Idealize.ShloMosaic.StableHlo
open Cert.ReferenceIdeal Cert.ReferenceIdeal.Facts₀ Cert.ReferenceIdeal.ValueP GcnSpec

/-! ## The layers as the host spells them, for any float arithmetic -/

section Spellings

variable {F : FTy → Type} [FloatOps F]

/-- The first product followed by the first neighbourhood sum. -/
def firstHost (x : FVec F S100000x128 .f32) (e : (⟨S2x1600000, .i32⟩ : BufTy).Contents (Elt F))
    (w : FVec F S1600000 .f32) (w1 : FVec F S128x64 .f32) : FVec F S100000x64 .f32 :=
  agg64 (F := F) (Host.dotGeneral (F := F) dot_S100000x128_S128x64_S100000x64_1_0_0_1_n_n none x w1) e w

/-- A bias vector of 64 entries broadcast in two steps over the rows and added. -/
def biasHost64 (a : FVec F S100000x64 .f32) (b : FVec F S64 .f32) : FVec F S100000x64 .f32 :=
  addf (F := F) a
    (broadcastInDim S100000x64 ![0, 1] bcast_S1x64_S100000x64_0_1 (broadcastInDim S1x64 ![1] bcast_S64_S1x64_1 b))

/-- The maximum with a broadcast zero, then the second product. -/
def reluDotHost (a : FVec F S100000x64 .f32) (w2 : FVec F S64x16 .f32) : FVec F S100000x16 .f32 :=
  Host.dotGeneral (F := F) dot_S100000x64_S64x16_S100000x16_1_0_0_1_n_n none
    (maximumf (F := F) a
      (broadcastInDim S100000x64 ![] bcast_S_S100000x64 (constant (F := F) S_ .f32 0x00000000#32))) w2

/-- A bias vector of 16 entries broadcast in two steps over the rows and added. -/
def biasHost16 (a : FVec F S100000x16 .f32) (b : FVec F S16 .f32) : FVec F S100000x16 .f32 :=
  addf (F := F) a
    (broadcastInDim S100000x16 ![0, 1] bcast_S1x16_S100000x16_0_1 (broadcastInDim S1x16 ![1] bcast_S16_S1x16_1 b))

/-- An array of 16 columns with every row shifted by its maximum: the maximum reduced from minus infinity, taken once
    more against minus infinity, and put back beside the rows by two broadcasts. -/
def shiftHostF (y : FVec F S100000x16 .f32) : FVec F S100000x16 .f32 :=
  subf (F := F) y (broadcastInDim S100000x16 ![0, 1] bcast_S100000x1_S100000x16_0_1
    (broadcastInDim S100000x1 ![0] bcast_S100000_S100000x1_0
      (maximumf (F := F) (broadcastInDim S100000 ![] bcast_S_S100000 (constant (F := F) S_ .f32 0xFF800000#32))
        (Host.reduce (FloatOps.maximumf : F .f32 → F .f32 → F .f32) y (constant (F := F) S_ .f32 0xFF800000#32)
          reducesTo_S100000x16_S100000_d1 h_S_))))

/-- The shifted rows minus the logarithm of the sum of their exponentials. -/
def outHostF (y : FVec F S100000x16 .f32) : FVec F S100000x16 .f32 :=
  subf (F := F) (shiftHostF y) (broadcastInDim S100000x16 ![0, 1] bcast_S100000x1_S100000x16_0_1
    (Host.log (F := F) (broadcastInDim S100000x1 ![0] bcast_S100000_S100000x1_0
      (Host.reduceAdd (F := F) (Host.exp (F := F) (shiftHostF y)) (constant (F := F) S_ .f32 0x00000000#32)
        reducesTo_S100000x16_S100000_d1 h_S_))))

end Spellings

/-! ## The fold over the operations, in four stretches -/

section Fold

variable {F : FTy → Type} [FloatOps F]

/-- Contents at a value's type, moved to its buffer's type and back, are the contents. -/
theorem ofBuf_toBuf {T : BufTy} (x : TRef sig T) (v : T.Contents (Elt F)) : x.ofBuf (x.toBuf v) = v := by
  obtain ⟨r, h, h1, h2⟩ := x
  subst h
  rfl

/-- The fold over two lists laid end to end is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (m : (ℓ : Loc nD τ sig) → Buf (Elt F) ℓ)

/-- The buffer contents after each stretch. -/
def RA (c : Dev nD) : Valuation τ sig (Elt F) := after opsA (launchContents m c)
def RB (c : Dev nD) : Valuation τ sig (Elt F) := after opsB (RA m c)
def RC (c : Dev nD) : Valuation τ sig (Elt F) := after opsC (RB m c)
def RD (c : Dev nD) : Valuation τ sig (Elt F) := after opsD (RC m c)

/-- The whole fold is the four in a row. -/
theorem after_ops (c : Dev nD) : after (ops (F := F)) (launchContents m c) = RD m c := by
  rw [ops_eq, after_append, after_append, after_append]
  rfl

/-- One of the seven argument buffers. -/
def IsArg (b : Ref sig .tc) : Prop :=
  b = main_arg0 ∨ b = main_arg1 ∨ b = main_arg2 ∨ b = main_arg3 ∨ b = main_arg4 ∨ b = main_arg5 ∨ b = main_arg6
theorem isArg0 : IsArg main_arg0 := .inl rfl
theorem isArg1 : IsArg main_arg1 := .inr (.inl rfl)
theorem isArg2 : IsArg main_arg2 := .inr (.inr (.inl rfl))
theorem isArg3 : IsArg main_arg3 := .inr (.inr (.inr (.inl rfl)))
theorem isArg4 : IsArg main_arg4 := .inr (.inr (.inr (.inr (.inl rfl))))
theorem isArg5 : IsArg main_arg5 := .inr (.inr (.inr (.inr (.inr (.inl rfl)))))
theorem isArg6 : IsArg main_arg6 := .inr (.inr (.inr (.inr (.inr (.inr rfl)))))

set_option maxHeartbeats 8000000 in
/-- No stretch writes an argument array. -/
theorem RA_keeps (c : Dev nD) (b : Ref sig .tc) (hb : IsArg b) :
    RA m c (Proc.devRef .tc b) = m ((c.tc : Thread nD τ).loc b) := by
  show after opsA (launchContents m c) (Proc.devRef .tc b) = _
  rcases hb with rfl | rfl | rfl | rfl | rfl | rfl | rfl <;> after_results_simp <;> rfl

set_option maxHeartbeats 8000000 in
theorem RB_keeps (c : Dev nD) (b : Ref sig .tc) (hb : IsArg b) :
    RB m c (Proc.devRef .tc b) = RA m c (Proc.devRef .tc b) := by
  show after opsB (RA m c) (Proc.devRef .tc b) = _
  rcases hb with rfl | rfl | rfl | rfl | rfl | rfl | rfl <;> after_results_simp

set_option maxHeartbeats 8000000 in
theorem RC_keeps (c : Dev nD) (b : Ref sig .tc) (hb : IsArg b) :
    RC m c (Proc.devRef .tc b) = RB m c (Proc.devRef .tc b) := by
  show after opsC (RB m c) (Proc.devRef .tc b) = _
  rcases hb with rfl | rfl | rfl | rfl | rfl | rfl | rfl <;> after_results_simp

set_option maxHeartbeats 8000000 in
theorem RD_keeps (c : Dev nD) (b : Ref sig .tc) (hb : IsArg b) :
    RD m c (Proc.devRef .tc b) = RC m c (Proc.devRef .tc b) := by
  show after opsD (RC m c) (Proc.devRef .tc b) = _
  rcases hb with rfl | rfl | rfl | rfl | rfl | rfl | rfl <;> after_results_simp

/-- THE REFERENCE'S FRAME, in values: the fold over all its operations leaves every argument as launched. -/
theorem ref_arg_kept (c : Dev nD) (b : Ref sig .tc) (hb : IsArg b) :
    after (ops (F := F)) (launchContents m c) (Proc.devRef .tc b) = m ((c.tc : Thread nD τ).loc b) := by
  rw [after_ops, RD_keeps m c b hb, RC_keeps m c b hb, RB_keeps m c b hb, RA_keeps m c b hb]

set_option maxHeartbeats 8000000 in
/-- After the first stretch: the neighbourhood sum of the first product, plus the first bias. -/
theorem RA_v48 (c : Dev nD) :
    RA m c (Proc.devRef .tc main_v48)
      = biasHost64 (F := F) (firstHost (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
  show after opsA (launchContents m c) (Proc.devRef .tc main_v48) = _
  after_results_simp
  simp only [ofBuf_toBuf]
  rfl

set_option maxHeartbeats 8000000 in
/-- After the second stretch: the maximum with zero, times the second weight matrix. -/
theorem RB_v50 (c : Dev nD) :
    RB m c (Proc.devRef .tc main_v50)
      = reluDotHost (F := F) (RA m c (Proc.devRef .tc main_v48)) (RA m c (Proc.devRef .tc main_arg5)) := by
  show after opsB (RA m c) (Proc.devRef .tc main_v50) = _
  after_results_simp
  simp only [ofBuf_toBuf]
  rfl

set_option maxHeartbeats 8000000 in
/-- After the third stretch: the neighbourhood sum of the second product, plus the second bias. -/
theorem RC_v98 (c : Dev nD) :
    RC m c (Proc.devRef .tc main_v98)
      = biasHost16 (F := F) (agg16 (F := F) (RB m c (Proc.devRef .tc main_v50)) (RB m c (Proc.devRef .tc main_arg1))
          (RB m c (Proc.devRef .tc main_arg2))) (RB m c (Proc.devRef .tc main_arg6)) := by
  show after opsC (RB m c) (Proc.devRef .tc main_v98) = _
  after_results_simp
  simp only [ofBuf_toBuf]
  rfl

set_option maxHeartbeats 8000000 in
/-- After the fourth stretch: the max-shifted log-sum-exp chain of what the third left. -/
theorem RD_v99 (c : Dev nD) :
    RD m c (Proc.devRef .tc main_v99) = outHostF (F := F) (RC m c (Proc.devRef .tc main_v98)) := by
  show after opsD (RC m c) (Proc.devRef .tc main_v99) = _
  after_results_simp
  simp only [ofBuf_toBuf]
  rfl

/-- The fold over all the operations, at the result buffer, in the host's spelling of the four layers. -/
theorem ref_value_host (c : Dev nD) :
    after (ops (F := F)) (launchContents m c) (Proc.devRef .tc main_v99)
      = outHostF (F := F) (biasHost16 (F := F) (agg16 (F := F)
          (reluDotHost (F := F) (biasHost64 (F := F) (firstHost (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5)))
          (m ((c.tc : Thread nD τ).loc main_arg1)) (m ((c.tc : Thread nD τ).loc main_arg2))) (m ((c.tc : Thread nD τ).loc main_arg6))) := by
  rw [after_ops, RD_v99, RC_v98, RB_v50, RA_v48, RB_keeps m c main_arg1 isArg1, RB_keeps m c main_arg2 isArg2,
    RB_keeps m c main_arg6 isArg6, RA_keeps m c main_arg1 isArg1, RA_keeps m c main_arg2 isArg2,
    RA_keeps m c main_arg5 isArg5, RA_keeps m c main_arg6 isArg6]

end Fold

/-! ## Over exact arithmetic the host spellings are the row-wise layers -/

/-- The first product. -/
theorem hostDot1 (x : FVec Ideal S100000x128 .f32) (w1 : FVec Ideal S128x64 .f32) :
    Host.dotGeneral dot_S100000x128_S128x64_S100000x64_1_0_0_1_n_n none x w1 = lin x w1 := by
  simp only [Host.dotGeneral]
  exact GcnOps.dotGeneral_eq_lin _ _ _ (Dot2.rank_contr _ rfl) (Dot2.size_contr _ rfl _) (Dot2.lhs0 _ rfl rfl)
    (Dot2.lhs1 _ rfl _) (Dot2.rhs0 _ rfl _) (Dot2.rhs1 _ rfl rfl rfl rfl) x w1

/-- The second product. -/
theorem hostDot2 (x : FVec Ideal S100000x64 .f32) (w2 : FVec Ideal S64x16 .f32) :
    Host.dotGeneral dot_S100000x64_S64x16_S100000x16_1_0_0_1_n_n none x w2 = lin x w2 := by
  simp only [Host.dotGeneral]
  exact GcnOps.dotGeneral_eq_lin _ _ _ (Dot2.rank_contr _ rfl) (Dot2.size_contr _ rfl _) (Dot2.lhs0 _ rfl rfl)
    (Dot2.lhs1 _ rfl _) (Dot2.rhs0 _ rfl _) (Dot2.rhs1 _ rfl rfl rfl rfl) x w2

/-- The first layer and the second product are the hidden features times the second weight matrix. -/
theorem reluDotHost_eq (x : FVec Ideal S100000x128 .f32) (e : (⟨S2x1600000, .i32⟩ : BufTy).Contents (Elt Ideal))
    (w : FVec Ideal S1600000 .f32) (w1 : FVec Ideal S128x64 .f32) (b1 : FVec Ideal S64 .f32) (w2 : FVec Ideal S64x16 .f32) :
    reluDotHost (F := Ideal) (biasHost64 (F := Ideal) (firstHost (F := Ideal) x e w w1) b1) w2 = lin (hidden x e w w1 b1) w2 := by
  unfold reluDotHost biasHost64 firstHost
  rw [hostDot2, hostDot1]
  refine congrArg (fun h => lin h w2) ?_
  exact GcnOps.relu_host (n := 100000) (k := 64) _ b1 bcast_S64_S1x64_1 bcast_S1x64_S100000x64_0_1 bcast_S_S100000x64 _

/-- The second bias and the log-sum-exp chain are the last layer. -/
theorem outHost_bias_eq (a : FVec Ideal S100000x16 .f32) (b2 : FVec Ideal S16 .f32) :
    outHostF (F := Ideal) (biasHost16 (F := Ideal) a b2)
      = lsm a (shapeCast Cert.KernelIdeal.S1x16 b2 Cert.KernelIdeal.Facts₀.shapeCasts_S16_S1x16) := by
  unfold biasHost16
  refine (GcnOps.logSoftmax_host (n := 100000) (k := 16) _ reducesTo_S100000x16_S100000_d1 (by decide) h_S_ bcast_S_S100000
    bcast_S100000_S100000x1_0 bcast_S100000x1_S100000x16_0_1).trans ?_
  exact GcnOps.lsm_host (n := 100000) (k := 16) a b2 bcast_S16_S1x16_1 bcast_S1x16_S100000x16_0_1 _

/-- THE REFERENCE'S VALUE: over exact arithmetic the fold over all its operations, at the result buffer, is the
    network of the arguments. -/
theorem ref_value (m : (ℓ : Loc nD τ sig) → Buf (Elt Ideal) ℓ) (c : Dev nD) :
    after (ops (F := Ideal)) (launchContents m c) (Proc.devRef .tc main_v99)
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [ref_value_host, reluDotHost_eq, outHost_bias_eq]
  rfl

end Cert.Gcn

end
-- ==== Proof.lean ====
/-
  A two-layer graph-convolution network over 100000 nodes and 1600000 weighted edges, as a kernel program and as a
  plain reference program: over exact arithmetic they end with the same result array.

  Both programs compute, from the node features x, the edge list e, the edge weights w, two weight matrices and two
  bias vectors,
      log-softmax of ( aggregate( relu( aggregate(x * W1) + b1 ) * W2 ) + b2 ),
  where "aggregate" is the degree-normalised neighbourhood sum with a loop at every node.  The kernel program does
  the two matrix products, the bias-and-relu and the bias-and-log-softmax in four kernel regions, each over ten blocks
  of 10000 rows, and the two aggregates on the host; the reference does everything on the host.

  Why they agree.  The aggregate is the same sequence of host operations in both programs, so it is carried as one
  named function and never opened (Proof/HostAgg.lean).  Every other layer is row-wise: row r of its result depends on
  row r of its operand only.  So the block a region writes at a grid point is that block of the layer applied to the
  whole operand, the ten blocks cover the result, and each region leaves the layer of the whole array
  (Proof/Blocks0.lean to Blocks3.lean, over the bodies' arithmetic in Proof/Payloads.lean).  Walking the kernel
  program's buffer contents from its last region back to the launch gives the network "net" of the arguments
  (Proof/KernelHost.lean, KernelValue.lean, over the run in KernelRun.lean); reading the reference's 142 operations in
  four stretches, and its host spellings of the layers as the same row-wise layers, gives the same "net"
  (Proof/RefLayers.lean).  A change of float format is the identity and a matrix product onto a zero accumulator is
  the plain sum of products, whichever unit computes it; the reference's extra maximum against minus infinity changes
  nothing.  No finiteness of the inputs is used: the two sides are the same sums of the same products.
-/
import proofs.«167572_j63075889709536_1_alg».proof.Defs
import proofs.«167572_j63075889709536_1_alg».proof.Proof.Gen.Kernel
import proofs.«167572_j63075889709536_1_alg».proof.Proof.Gen.Kernel.Frame
import proofs.«167572_j63075889709536_1_alg».proof.Proof.Gen.KernelIdeal
import proofs.«167572_j63075889709536_1_alg».proof.Proof.Gen.KernelIdeal.Frame
import proofs.«167572_j63075889709536_1_alg».proof.Proof.Gen.ReferenceIdeal
import proofs.«167572_j63075889709536_1_alg».proof.Proof.Gen.Pre_finite_inputs
import proofs.«167572_j63075889709536_1_alg».proof.Proof.KernelRun
import proofs.«167572_j63075889709536_1_alg».proof.Proof.KernelValue
import proofs.«167572_j63075889709536_1_alg».proof.Proof.RefLayers
import Idealize.ShloMosaic.Adequacy
import Idealize.ShloMosaic.Init

noncomputable section

namespace Cert.Proof

open Idealize.ShloMosaic Idealize.SL.Sem

/-- The network's value depends on its seven arguments only. -/
theorem net_congr {x x' : _} {e e' : _} {w w' : _} {w1 w1' : _} {b1 b1' : _} {w2 w2' : _} {b2 b2' : _}
    (h0 : x = x') (h1 : e = e') (h2 : w = w') (h3 : w1 = w1') (h4 : b1 = b1') (h5 : w2 = w2') (h6 : b2 = b2') :
    Cert.Gcn.net x e w w1 b1 w2 b2 = Cert.Gcn.net x' e' w' w1' b1' w2' b2' := by
  subst h0 h1 h2 h3 h4 h5 h6; rfl

/-- The word-level kernel program runs and leaves its arguments unchanged: its generated frame. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference runs, and no operation of it writes an argument. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
      ⟨(h c _).trans (Cert.Gcn.ref_arg_kept m c _ Cert.Gcn.isArg0), (h c _).trans (Cert.Gcn.ref_arg_kept m c _ Cert.Gcn.isArg1),
       (h c _).trans (Cert.Gcn.ref_arg_kept m c _ Cert.Gcn.isArg2), (h c _).trans (Cert.Gcn.ref_arg_kept m c _ Cert.Gcn.isArg3),
       (h c _).trans (Cert.Gcn.ref_arg_kept m c _ Cert.Gcn.isArg4), (h c _).trans (Cert.Gcn.ref_arg_kept m c _ Cert.Gcn.isArg5),
       (h c _).trans (Cert.Gcn.ref_arg_kept m c _ Cert.Gcn.isArg6)⟩)
    (Cert.ReferenceIdeal.ValueP.run_ops (F := Ideal) m ρ)

/-- Over exact arithmetic, from memories that agree on the arguments, both programs end with the network of the
    arguments in their result buffer. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun _ h c => ⟨(h c).1.trans (Cert.Gcn.kernel_value m ρ c), (h c).2⟩)
      (Cert.Gcn.run_result (F := Ideal) m ρ)
  · exact (θ_run Cert.ReferenceIdeal.defs _ _).mono (fun _ h c =>
      ⟨(h c _).trans ((Cert.Gcn.ref_value m' c).trans (net_congr (hagree c).1 (hagree c).2.1 (hagree c).2.2.1 (hagree c).2.2.2.1
          (hagree c).2.2.2.2.1 (hagree c).2.2.2.2.2.1 (hagree c).2.2.2.2.2.2)),
       (h c _).trans (Cert.Gcn.ref_arg_kept m' c _ Cert.Gcn.isArg0), (h c _).trans (Cert.Gcn.ref_arg_kept m' c _ Cert.Gcn.isArg1),
       (h c _).trans (Cert.Gcn.ref_arg_kept m' c _ Cert.Gcn.isArg2), (h c _).trans (Cert.Gcn.ref_arg_kept m' c _ Cert.Gcn.isArg3),
       (h c _).trans (Cert.Gcn.ref_arg_kept m' c _ Cert.Gcn.isArg4), (h c _).trans (Cert.Gcn.ref_arg_kept m' c _ Cert.Gcn.isArg5),
       (h c _).trans (Cert.Gcn.ref_arg_kept m' c _ Cert.Gcn.isArg6)⟩)
      (Cert.ReferenceIdeal.ValueP.run_ops (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
